-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8 : Shape := ⟨1, ![8]⟩
abbrev S2048x8 : Shape := ⟨2, ![2048, 8]⟩
abbrev S512x2048 : Shape := ⟨2, ![512, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S8x2048x512 .f32) (main_arg1 : FVec F S8 .f32) (main_arg2 : FVec F S2048x8 .f32) (main_arg3 : FVec F S512x2048 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S8x2048x512 : Shape := ⟨3, ![8, 2048, 512]⟩
abbrev S8 : Shape := ⟨1, ![8]⟩
abbrev S2048x8 : Shape := ⟨2, ![2048, 8]⟩
abbrev S512x2048 : Shape := ⟨2, ![512, 2048]⟩
abbrev S16384x512 : Shape := ⟨2, ![16384, 512]⟩
abbrev S16384x8 : Shape := ⟨2, ![16384, 8]⟩
abbrev S1x8 : Shape := ⟨2, ![1, 8]⟩
abbrev S8x2048 : Shape := ⟨2, ![8, 2048]⟩
abbrev S2048x512 : Shape := ⟨2, ![2048, 512]⟩
abbrev S1024x8 : Shape := ⟨2, ![1024, 8]⟩
abbrev S1024x512 : Shape := ⟨2, ![1024, 512]⟩
abbrev S1024x2048 : Shape := ⟨2, ![1024, 2048]⟩

abbrev nBuf : Space → Nat
  | .hbm => 15
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S16384x512, .f32⟩
  | .hbm, ⟨5, _⟩ => ⟨S16384x8, .f32⟩
  | .hbm, ⟨6, _⟩ => ⟨S16384x8, .f32⟩
  | .hbm, ⟨7, _⟩ => ⟨S8, .f32⟩
  | .hbm, ⟨8, _⟩ => ⟨S1x8, .f32⟩
  | .hbm, ⟨9, _⟩ => ⟨S16384x8, .f32⟩
  | .hbm, ⟨10, _⟩ => ⟨S16384x8, .f32⟩
  | .hbm, ⟨11, _⟩ => ⟨S8x2048, .f32⟩
  | .hbm, ⟨12, _⟩ => ⟨S2048x512, .f32⟩
  | .hbm, ⟨13, _⟩ => ⟨S16384x512, .f32⟩
  | .hbm, ⟨14, _⟩ => ⟨S8x2048x512, .f32⟩
  | .local _ .vmem, ⟨0, _⟩ => ⟨S1024x8, .f32⟩
  | .local _ .vmem, ⟨1, _⟩ => ⟨S1024x8, .f32⟩
  | .local _ .vmem, ⟨2, _⟩ => ⟨S8x2048, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x512_S16384x512 : S8x2048x512.ShapeCasts S16384x512
  slices_S16384x512_S16384x8_0_0 : S16384x512.Slices ![0, 0] S16384x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  transposes_S2048x8_S8x2048_1_0 : S2048x8.Transposes [1, 0] S8x2048
  transposes_S512x2048_S2048x512_1_0 : S512x2048.Transposes [1, 0] S2048x512
  shapeCasts_S16384x512_S8x2048x512 : S16384x512.ShapeCasts S8x2048x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_call0_v6) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8 : Shape := ⟨1, ![8]⟩
abbrev S2048x8 : Shape := ⟨2, ![2048, 8]⟩
abbrev S512x2048 : Shape := ⟨2, ![512, 2048]⟩
abbrev S8x2048x8 : Shape := ⟨3, ![8, 2048, 8]⟩
abbrev S1x1x8 : Shape := ⟨3, ![1, 1, 8]⟩
abbrev S8x2048x2048 : Shape := ⟨3, ![8, 2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S8x2048x8, .f32⟩
  | .hbm, ⟨5, _⟩ => ⟨S8x2048x8, .f32⟩
  | .hbm, ⟨6, _⟩ => ⟨S8, .f32⟩
  | .hbm, ⟨7, _⟩ => ⟨S1x1x8, .f32⟩
  | .hbm, ⟨8, _⟩ => ⟨S8x2048x8, .f32⟩
  | .hbm, ⟨9, _⟩ => ⟨S8x2048x8, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x2048x512_S8x2048x8_0_0_0 : S8x2048x512.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S_S8x2048x2048 : S_.BroadcastsInDim S8x2048x2048 (![] : Fin 0 → Fin S8x2048x2048.rank)
  dot_S8x2048x8_S2048x8_S8x2048x2048_2_1_01_0_n_n_wf : DotDims.WF S8x2048x8 S2048x8 S8x2048x2048 [2] [1] [0, 1] [0] [] []
  dot_S8x2048x2048_S512x2048_S8x2048x512_2_1_01_0_n_n_wf : DotDims.WF S8x2048x2048 S512x2048 S8x2048x512 [2] [1] [0, 1] [0] [] []

variable [Facts₀]

def dot_S8x2048x8_S2048x8_S8x2048x2048_2_1_01_0_n_n : DotDims S8x2048x8 S2048x8 S8x2048x2048 where
  lhsContracting := [2]
  rhsContracting := [1]
  lhsNonContracting := [0, 1]
  rhsNonContracting := [0]
  lhsBatch := []
  rhsBatch := []
  wf := dot_S8x2048x8_S2048x8_S8x2048x2048_2_1_01_0_n_n_wf
def dot_S8x2048x2048_S512x2048_S8x2048x512_2_1_01_0_n_n : DotDims S8x2048x2048 S512x2048 S8x2048x512 where
  lhsContracting := [2]
  rhsContracting := [1]
  lhsNonContracting := [0, 1]
  rhsNonContracting := [0]
  lhsBatch := []
  rhsBatch := []
  wf := dot_S8x2048x2048_S512x2048_S8x2048x512_2_1_01_0_n_n_wf

class Facts : Prop extends Facts₀ where

variable [Facts]
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.KernelPayload.lean ====
/-
  What the kernel body stores, entry by entry.

  On a block of 1024 tokens the body forms the 1024 by 2048 product of the block's encodings with the 8 by 2048
  matrix, clips it below at zero, and forms the 1024 by 512 product with the 2048 by 512 matrix; each product starts
  from the zero accumulator, and the narrowings to the short float format between the steps keep every value as it
  is. So entry (p, e) of what is stored is the sum over the 2048 hidden units f of
  max(sum over the 8 wires q of z(p, q) * a(q, f), 0) * b(f, e).
-/
import proofs.«140839_j65481071400590_1_alg».proof.Proof.Gen.KernelIdeal.Skeleton
import proofs.«140839_j65481071400590_1_alg».proof.Proof.LibMatmulRows
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.ValueIdx

/-! ## The two products' free axes -/

/-- In the first product the left operand's row is the result's row. -/
theorem first_row (i : S1024x2048.Idx) (q : dot_S1024x8_S8x2048_S1024x2048_1_0_0_1_n_n.contr.Idx) :
    (dot_S1024x8_S8x2048_S1024x2048_1_0_0_1_n_n.lhsIdx i q 0).val = (i 0).val := by
  unfold DotDims.lhsIdx
  rw [dif_neg (show ¬(0 : Fin S1024x8.rank) ∈ dot_S1024x8_S8x2048_S1024x2048_1_0_0_1_n_n.lhsBatch by decide),
    dif_pos (show (0 : Fin S1024x8.rank) ∈ dot_S1024x8_S8x2048_S1024x2048_1_0_0_1_n_n.lhsNonContracting by decide)]
  rfl

/-- In the first product the right operand's column is the result's column. -/
theorem first_col (i : S1024x2048.Idx) (q : dot_S1024x8_S8x2048_S1024x2048_1_0_0_1_n_n.contr.Idx) :
    (dot_S1024x8_S8x2048_S1024x2048_1_0_0_1_n_n.rhsIdx i q 1).val = (i 1).val := by
  unfold DotDims.rhsIdx
  rw [dif_neg (show ¬(1 : Fin S8x2048.rank) ∈ dot_S1024x8_S8x2048_S1024x2048_1_0_0_1_n_n.rhsBatch by decide),
    dif_pos (show (1 : Fin S8x2048.rank) ∈ dot_S1024x8_S8x2048_S1024x2048_1_0_0_1_n_n.rhsNonContracting by decide)]
  rfl

/-- In the second product the left operand's row is the result's row. -/
theorem second_row (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl

/-- In the second product the right operand's column is the result's column. -/
theorem second_col (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-! ## The stored value at an entry -/

/-- The clipped first product at (p, f): the block's row p against column f, no lower than zero. -/
def unit (z : S1024x8.Idx → EReal) (a : S8x2048.Idx → EReal) (p : Fin 1024) (f : Fin 2048) : EReal :=
  max (∑ q : Fin 8, z (ix2 p q) * a (ix2 q f)) (Ideal.ofBits .f32 0x00000000#32)

/-- Entry (p, e) of what the body stores: the clipped first product's row p against column e of the second matrix. -/
theorem stored_apply (z : Vec Ideal S1024x8 .f32) (a : Vec Ideal S8x2048 .f32) (b : Vec Ideal S2048x512 .f32)
    (p : Fin 1024) (e : Fin 512) :
    k0_pay1 (F := Ideal) z a b (ix2 p e) = ∑ f : Fin 2048, unit z a p f * b (ix2 f e) := by
  unfold k0_pay1
  simp only [shapeCast_self]
  refine (MatmulRows.matmul_zero_apply dot_S1024x2048_S2048x512_S1024x512_1_0_0_1_n_n none rfl rfl rfl rfl
    second_row second_col _ _ (ix2 p e)).trans ?_
  refine Finset.sum_congr rfl fun f _ => ?_
  rw [truncf_apply, truncf_apply, maximumf_apply, broadcast_apply]
  refine congrArg₂ (· * ·) ?_ rfl
  unfold unit
  refine congrArg₂ max ?_ rfl
  refine (MatmulRows.matmul_zero_apply dot_S1024x8_S8x2048_S1024x2048_1_0_0_1_n_n none rfl rfl rfl rfl
    first_row first_col _ _ (ix2 p f)).trans ?_
  refine Finset.sum_congr rfl fun q _ => ?_
  rw [truncf_apply, truncf_apply]

end Cert.KernelIdeal.Body

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.Spec.lean ====
/-
  The feed-forward block as one function of its four arrays, on the extended reals.

  A token (b, s) is encoded on 8 wires: wire q carries cos(x[b, s, q]) * cos(theta[q]), using only the first 8 of the
  token's 512 channels. The hidden layer has 2048 units: unit f is the encoding's inner product with row f of W1,
  clipped below at zero. Output channel e of the token is the hidden layer's inner product with row e of W2.

      out[b, s, e] = sum over f of max(sum over q of (cos x[b,s,q] * cos theta[q]) * W1[f,q], 0) * W2[e,f]

  Both programs compute exactly this nesting of sums, each product with its factors in this order, so nothing but the
  shape of the two sums is ever used: no distributivity, no cancellation, and hence no finiteness of the inputs.
-/
import Idealize.ShloMosaic.PureOps.Ideal
import Idealize.ShloMosaic.Lib.ValueIdx

noncomputable section

namespace Cert.FeedForward

open Idealize.ShloMosaic Idealize.ShloMosaic.ValueIdx

/-- The level the hidden layer is clipped at: the float word of all zero bits. -/
abbrev floor0 : EReal := Ideal.ofBits .f32 0x00000000#32

/-- Wire q reads channel q of the token: the first 8 of its 512 channels. -/
abbrev chan (q : Fin 8) : Fin 512 := ⟨q.val, by have := q.isLt; omega⟩

/-- Wire q of token (b, s): the cosine of the token's channel q times the cosine of the wire's angle. -/
def enc (x : (⟨3, ![8, 2048, 512]⟩ : Shape).Idx → EReal) (θ : (⟨1, ![8]⟩ : Shape).Idx → EReal)
    (b : Fin 8) (s : Fin 2048) (q : Fin 8) : EReal :=
  Ideal.cos (x (ix3 b s (chan q))) * Ideal.cos (θ (ix1 q))

/-- Hidden unit f of token (b, s): the encoding against row f of W1, clipped below at zero. -/
def hiddenUnit (x : (⟨3, ![8, 2048, 512]⟩ : Shape).Idx → EReal) (θ : (⟨1, ![8]⟩ : Shape).Idx → EReal)
    (W1 : (⟨2, ![2048, 8]⟩ : Shape).Idx → EReal) (b : Fin 8) (s : Fin 2048) (f : Fin 2048) : EReal :=
  max (∑ q : Fin 8, enc x θ b s q * W1 (ix2 f q)) floor0

/-- The block's output: channel (i 2) of token (i 0, i 1) is the hidden layer against row (i 2) of W2. -/
def out (x : (⟨3, ![8, 2048, 512]⟩ : Shape).Idx → EReal) (θ : (⟨1, ![8]⟩ : Shape).Idx → EReal)
    (W1 : (⟨2, ![2048, 8]⟩ : Shape).Idx → EReal) (W2 : (⟨2, ![512, 2048]⟩ : Shape).Idx → EReal) :
    (⟨3, ![8, 2048, 512]⟩ : Shape).Idx → EReal :=
  fun i => ∑ f : Fin 2048, hiddenUnit x θ W1 (i 0) (i 1) f * W2 (ix2 (i 2) f)

end Cert.FeedForward

end
-- ==== Proof.KernelHost.lean ====
/-
  What the region finds in its three input arrays.

  Before the region the tokens are laid out as 16384 rows (row r = b * 2048 + s is token (b, s)) and cut to their
  first 8 channels, the cosines are taken and multiplied, wire by wire, with the cosines of the 8 angles repeated down
  the rows; and the two weight matrices are transposed. So the first array at (r, q) is the encoding of token (b, s)
  on wire q, the second at (q, f) is W1 at (f, q), and the third at (f, e) is W2 at (e, f).
-/
import proofs.«140839_j65481071400590_1_alg».proof.Proof.Gen.KernelIdeal.Frame
import proofs.«140839_j65481071400590_1_alg».proof.Proof.LibHostBroadcast
import proofs.«140839_j65481071400590_1_alg».proof.Proof.Spec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx Cert.FeedForward

/-! ## The three arrays as terms of the arguments -/

/-- The encodings, one row per token. -/
def encRows (x : S8x2048x512.Idx → EReal) (θ : S8.Idx → EReal) : S16384x8.Idx → EReal :=
  mulf (F := Ideal) (φ := .f32)
    (Host.cos (F := Ideal) (φ := .f32) (extractStridedSlice S16384x8 ![0, 0]
      (shapeCast S16384x512 x shapeCasts_S8x2048x512_S16384x512) slices_S16384x512_S16384x8_0_0))
    (broadcastInDim S16384x8 ![0, 1] bcast_S1x8_S16384x8_0_1
      (broadcastInDim S1x8 ![1] bcast_S8_S1x8_1 (Host.cos (F := Ideal) (φ := .f32) θ)))

variable (m : (ℓ : Loc nD τ sig) → Buf (Elt Ideal) ℓ)

/-- The first window's array as the region finds it. -/
theorem found_enc (c : Dev nD) :
    (V m c main_call0_v6 : S16384x8.Idx → EReal)
      = encRows (m ((c : Thread nD τ).loc main_arg0)) (m ((c : Thread nD τ).loc main_arg1)) := by
  show StableHlo.after hostOps0 (fun b => m (c, b)) (Proc.devRef .tc main_call0_v6) = _
  after_results
  rfl

/-- The second window's array as the region finds it: W1 transposed. -/
theorem found_w1 (c : Dev nD) :
    (V m c main_call0_v7 : S8x2048.Idx → EReal)
      = transpose S8x2048 [1, 0] (m ((c : Thread nD τ).loc main_arg2)) transposes_S2048x8_S8x2048_1_0 := by
  show StableHlo.after hostOps0 (fun b => m (c, b)) (Proc.devRef .tc main_call0_v7) = _
  after_results
  rfl

/-- The third window's array as the region finds it: W2 transposed. -/
theorem found_w2 (c : Dev nD) :
    (V m c main_call0_v8 : S2048x512.Idx → EReal)
      = transpose S2048x512 [1, 0] (m ((c : Thread nD τ).loc main_arg3)) transposes_S512x2048_S2048x512_1_0 := by
  show StableHlo.after hostOps0 (fun b => m (c, b)) (Proc.devRef .tc main_call0_v8) = _
  after_results
  rfl

/-! ## Each read at an index -/

/-- Row r = b * 2048 + s of the encodings, wire q, is the encoding of token (b, s) on wire q. -/
theorem encRows_apply (x : S8x2048x512.Idx → EReal) (θ : S8.Idx → EReal) (r : Fin 16384) (b : Fin 8) (s : Fin 2048)
    (q : Fin 8) (hr : r.val = b.val * 2048 + s.val) : encRows x θ (ix2 r q) = enc x θ b s q := by
  unfold encRows enc
  rw [mulf_apply]
  refine congrArg₂ (· * ·) ?_ ?_
  · show Ideal.cos _ = Ideal.cos _
    refine congrArg Ideal.cos ?_
    refine (extractStridedSlice_apply ![0, 0] _ slices_S16384x512_S16384x8_0_0 (ix2 r q) (ix2 r (chan q))
      (fun a => match a with
        | ⟨0, _⟩ => by show r.val = 0 + r.val; omega
        | ⟨1, _⟩ => by show q.val = 0 + q.val; omega)).trans ?_
    refine shapeCast_apply x shapeCasts_S8x2048x512_S16384x512 (ix2 r (chan q)) (ix3 b s (chan q)) ?_
    rw [Shape.rowMajor_val_three, Shape.rowMajor_val_two]
    show (b.val * 2048 + s.val) * 512 + q.val = r.val * 512 + q.val
    rw [hr]
  · refine (HostBroadcast.bias_apply bcast_S8_S1x8_1 bcast_S1x8_S16384x8_0_1 _ (ix2 r q)).trans ?_
    rfl

/-- W1 transposed at (q, f) is W1 at (f, q). -/
theorem w1T_apply (W1 : S2048x8.Idx → EReal) (q : Fin 8) (f : Fin 2048) :
    transpose S8x2048 [1, 0] W1 transposes_S2048x8_S8x2048_1_0 (ix2 q f) = W1 (ix2 f q) :=
  transpose_apply [1, 0] W1 transposes_S2048x8_S8x2048_1_0 (ix2 q f) (ix2 f q)
    (fun a => match a with | ⟨0, _⟩ => rfl | ⟨1, _⟩ => rfl)

/-- W2 transposed at (f, e) is W2 at (e, f). -/
theorem w2T_apply (W2 : S512x2048.Idx → EReal) (f : Fin 2048) (e : Fin 512) :
    transpose S2048x512 [1, 0] W2 transposes_S512x2048_S2048x512_1_0 (ix2 f e) = W2 (ix2 e f) :=
  transpose_apply [1, 0] W2 transposes_S512x2048_S2048x512_1_0 (ix2 f e) (ix2 e f)
    (fun a => match a with | ⟨0, _⟩ => rfl | ⟨1, _⟩ => rfl)

end Cert.KernelIdeal.Entry

end
-- ==== Proof.KernelBlocks.lean ====
/-
  From the blocks to the whole array.

  The grid has 16 points; point t works on rows t * 1024 … t * 1024 + 1023 of the 16384 token rows and on the two
  weight matrices whole, and writes back rows t * 1024 … of the result. Row r of the result is the output of token
  (r / 2048, r % 2048): what a point stores at (p, e) is the specification at row t * 1024 + p, channel e, because
  the block of encodings it loads holds exactly those rows. The 16 blocks of 1024 rows cover the 16384 rows (row r is
  in block r / 1024), so after the last point the array is the specification row by row.
-/
import proofs.«140839_j65481071400590_1_alg».proof.Proof.Gen.KernelIdeal.Frame
import proofs.«140839_j65481071400590_1_alg».proof.Proof.KernelPayload
import proofs.«140839_j65481071400590_1_alg».proof.Proof.KernelHost
import proofs.«140839_j65481071400590_1_alg».proof.Proof.Spec
import Idealize.ShloMosaic.Lib.Pipeline.Value
import Idealize.ShloMosaic.Lib.ValueIdx

noncomputable section

namespace Cert.KernelIdeal.Region

open Cert.KernelIdeal Cert.KernelIdeal.Gen
open Idealize.ShloMosaic Idealize.ShloMosaic.TcCoe Idealize.SL.Sem
open Idealize.ShloMosaic.Pipeline (Dat)
open Idealize.ShloMosaic.ValueIdx Cert.FeedForward

/-! ## The region's result, row by row -/

/-- The batch of the token in row r. -/
abbrev rowBatch (r : Fin 16384) : Fin 8 := ⟨r.val / 2048, by have := r.isLt; omega⟩
/-- The position in its sequence of the token in row r. -/
abbrev rowPos (r : Fin 16384) : Fin 2048 := ⟨r.val % 2048, Nat.mod_lt _ (by decide)⟩

/-- The result with the tokens laid out as rows: row r is the output of token (r / 2048, r % 2048). -/
def rows (x : S8x2048x512.Idx → EReal) (θ : S8.Idx → EReal) (W1 : S2048x8.Idx → EReal) (W2 : S512x2048.Idx → EReal) :
    S16384x512.Idx → EReal :=
  fun i => out x θ W1 W2 (ix3 (rowBatch (i 0)) (rowPos (i 0)) (i 1))

/-- One stored entry. If a block of encodings holds, in its row p, the encoding of the token in row r, and the two
    matrices are the transposed weights, then what the body stores at (p, e) is the result at row r, channel e. -/
theorem stored_is_row (x : S8x2048x512.Idx → EReal) (θ : S8.Idx → EReal) (W1 : S2048x8.Idx → EReal)
    (W2 : S512x2048.Idx → EReal) (z : Vec Ideal S1024x8 .f32) (a : Vec Ideal S8x2048 .f32) (b : Vec Ideal S2048x512 .f32)
    (r : Fin 16384) (p : Fin 1024) (e : Fin 512)
    (hz : ∀ q : Fin 8, z (ix2 p q) = enc x θ (rowBatch r) (rowPos r) q)
    (ha : ∀ (q : Fin 8) (f : Fin 2048), a (ix2 q f) = W1 (ix2 f q))
    (hb : ∀ f : Fin 2048, b (ix2 f e) = W2 (ix2 e f)) :
    k0_pay1 (F := Ideal) z a b (ix2 p e) = rows x θ W1 W2 (ix2 r e) := by
  rw [Body.stored_apply]
  unfold rows out
  refine Finset.sum_congr rfl fun f _ => ?_
  rw [hb f]
  refine congrArg₂ (· * ·) ?_ rfl
  unfold Body.unit hiddenUnit
  refine congrArg₂ max ?_ rfl
  refine Finset.sum_congr rfl fun q _ => ?_
  rw [hz q, ha q f]

/-! ## What a point writes back -/

variable (m : (ℓ : Loc nD τ sig) → Buf (Elt Ideal) ℓ)

theorem offsets_zero : (![0, 0] : Fin 2 → Nat) = fun _ => 0 := funext fun a => by fin_cases a <;> rfl

/-- The index maps over the 16 points: the encodings' and the result's blocks move down with the point, the two
    weight matrices stay whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t writes back block t of the result laid out as rows. -/
theorem flushed_eq (c : Dev nD) (t : Fin cfg0.N) :
    (dats m 0 c).flushed 3 t = ((cfg0.win 3).blk t).view.read (Elt Ideal)
      (rows (m ((c : Thread nD τ).loc main_arg0)) (m ((c : Thread nD τ).loc main_arg1))
        (m ((c : Thread nD τ).loc main_arg2)) (m ((c : Thread nD τ).loc main_arg3))) := by
  show (cfg0.win 3).cut (grid0.coords t) ((dats m 0 c).after 3 t) = _
  rw [after0_3]
  unfold out0_3
  rw [View.canon_unit_zero offsets_zero]
  simp only [View.ld_unit_zero (S := S1024x8) offsets_zero, View.ld_unit_zero (S := S8x2048) offsets_zero,
    View.ld_unit_zero (S := S2048x512) offsets_zero]
  obtain ⟨e00, e01, e10, e11, e20, e21, e30, e31⟩ := block_indices t
  have ht : t.val < 16 := by have h : t.val < grid0.N := t.isLt; rw [N_0] at h; exact h
  funext j
  obtain ⟨p, e, rfl⟩ : ∃ (p : Fin 1024) (e : Fin 512), j = ix2 p e := ⟨j 0, j 1, eq_ix2 j⟩
  show k0_pay1 (F := Ideal) (iblk m c 0 t) (iblk m c 1 t) (iblk m c 2 t) (ix2 p e)
    = rows _ _ _ _ (((cfg0.win 3).blk t).view.emb (ix2 p e))
  have hrow : ((cfg0.win 3).blk t).view.emb (ix2 p e)
      = ix2 (⟨t.val * 1024 + p.val, by have := p.isLt; omega⟩ : Fin 16384) e := by
    funext ax; apply Fin.ext
    match ax with
    | ⟨0, _⟩ => show win0_3.index t (0 : Fin 2) * 1024 + 1 * p.val = t.val * 1024 + p.val; omega
    | ⟨1, _⟩ => show win0_3.index t (1 : Fin 2) * 512 + 1 * e.val = e.val; omega
  rw [hrow]
  refine stored_is_row _ _ _ _ (iblk m c 0 t) (iblk m c 1 t) (iblk m c 2 t)
    (⟨t.val * 1024 + p.val, by have := p.isLt; omega⟩ : Fin 16384) p e ?_ ?_ ?_
  · intro q
    show V m c main_call0_v6 (((cfg0.win 0).blk t).view.emb (ix2 p q)) = _
    have h0 : ((cfg0.win 0).blk t).view.emb (ix2 p q)
        = ix2 (⟨t.val * 1024 + p.val, by have := p.isLt; omega⟩ : Fin 16384) q := by
      funext ax; apply Fin.ext
      match ax with
      | ⟨0, _⟩ => show win0_0.index t (0 : Fin 2) * 1024 + 1 * p.val = t.val * 1024 + p.val; omega
      | ⟨1, _⟩ => show win0_0.index t (1 : Fin 2) * 8 + 1 * q.val = q.val; omega
    rw [h0, Entry.found_enc]
    exact Entry.encRows_apply _ _ _ _ _ q (by show t.val * 1024 + p.val = (t.val * 1024 + p.val) / 2048 * 2048 + (t.val * 1024 + p.val) % 2048; omega)
  · intro q f
    show V m c main_call0_v7 (((cfg0.win 1).blk t).view.emb (ix2 q f)) = _
    have h1 : ((cfg0.win 1).blk t).view.emb (ix2 q f) = ix2 q f := by
      funext ax; apply Fin.ext
      match ax with
      | ⟨0, _⟩ => show win0_1.index t (0 : Fin 2) * 8 + 1 * q.val = q.val; omega
      | ⟨1, _⟩ => show win0_1.index t (1 : Fin 2) * 2048 + 1 * f.val = f.val; omega
    rw [h1, Entry.found_w1]
    exact Entry.w1T_apply _ q f
  · intro f
    show V m c main_call0_v8 (((cfg0.win 2).blk t).view.emb (ix2 f e)) = _
    have h2 : ((cfg0.win 2).blk t).view.emb (ix2 f e) = ix2 f e := by
      funext ax; apply Fin.ext
      match ax with
      | ⟨0, _⟩ => show win0_2.index t (0 : Fin 2) * 2048 + 1 * f.val = f.val; omega
      | ⟨1, _⟩ => show win0_2.index t (1 : Fin 2) * 512 + 1 * e.val = e.val; omega
    rw [h2, Entry.found_w2]
    exact Entry.w2T_apply _ f e

/-! ## The 16 blocks cover the array -/

/-- A row and channel is in point t's block when each lies in the block's range. -/
theorem mem_blk (t : Fin cfg0.N) (i : S16384x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_call0_v9).slice (win0_3.rect t)).set ↔ _
  rw [View.set_slice_whole, Rect.mem_set_unit]
  exact Iff.rfl

/-- Every one of the 16 row blocks is some point's. -/
theorem block_onto : ∀ k : Fin 16, ∃ t : Fin cfg0.N, win0_3.index t = ![k.val, 0] :=
  (by decide +kernel : ∀ k : Fin 16, ∃ t : Fin grid0.N, win0_3.index t = ![k.val, 0])

/-- Row r lies in the block of the point whose block index is r / 1024. -/
theorem covered (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- After the last point the result array is the specification, row by row. -/
theorem final (c : Dev nD) :
    (dats m 0 c).arrAt 3 cfg0.N
      = rows (m ((c : Thread nD τ).loc main_arg0)) (m ((c : Thread nD τ).loc main_arg1))
          (m ((c : Thread nD τ).loc main_arg2)) (m ((c : Thread nD τ).loc main_arg3)) :=
  (dats m 0 c).arrAt_eq_of_cover 3 _ (fun t _ => flushed_eq m c t) covered

end Cert.KernelIdeal.Region

end
-- ==== Proof.KernelRun.lean ====
/-
  The kernel program's result.

  After the region the 16384 rows are folded back to 8 batches of 2048 tokens: entry (b, s, e) of the result is row
  b * 2048 + s of the region's array, channel e. That row is the output of token ((b * 2048 + s) / 2048,
  (b * 2048 + s) % 2048) = (b, s), so the program's result is the feed-forward block of its four arguments, and the
  arguments end as they began.
-/
import proofs.«140839_j65481071400590_1_alg».proof.Proof.Gen.KernelIdeal.Frame
import proofs.«140839_j65481071400590_1_alg».proof.Proof.KernelBlocks
import proofs.«140839_j65481071400590_1_alg».proof.Proof.Spec
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx Cert.FeedForward

/-- Folding the rows back: entry (b, s, e) is row b * 2048 + s, channel e, and that row is token (b, s)'s. -/
theorem fold_rows (x : S8x2048x512.Idx → EReal) (θ : S8.Idx → EReal) (W1 : S2048x8.Idx → EReal)
    (W2 : S512x2048.Idx → EReal) :
    shapeCast S8x2048x512 (Region.rows x θ W1 W2) shapeCasts_S16384x512_S8x2048x512 = out x θ W1 W2 := by
  funext i
  obtain ⟨b, s, e, rfl⟩ : ∃ (b : Fin 8) (s : Fin 2048) (e : Fin 512), i = ix3 b s e := ⟨i 0, i 1, i 2, eq_ix3 i⟩
  have hs : s.val < 2048 := s.isLt
  have hb : b.val < 8 := b.isLt
  refine (shapeCast_apply (Region.rows x θ W1 W2) shapeCasts_S16384x512_S8x2048x512 (ix3 b s e)
    (ix2 (⟨b.val * 2048 + s.val, by omega⟩ : Fin 16384) e) ?_).trans ?_
  · rw [Shape.rowMajor_val_two, Shape.rowMajor_val_three]
    rfl
  · have hB : Region.rowBatch (⟨b.val * 2048 + s.val, by omega⟩ : Fin 16384) = b :=
      Fin.ext (by show (b.val * 2048 + s.val) / 2048 = b.val; omega)
    have hS : Region.rowPos (⟨b.val * 2048 + s.val, by omega⟩ : Fin 16384) = s :=
      Fin.ext (by show (b.val * 2048 + s.val) % 2048 = s.val; omega)
    show out x θ W1 W2 (ix3 (Region.rowBatch (⟨b.val * 2048 + s.val, by omega⟩ : Fin 16384))
      (Region.rowPos (⟨b.val * 2048 + s.val, by omega⟩ : Fin 16384)) e) = _
    rw [hB, hS]

variable (m : (ℓ : Loc nD τ sig) → Buf (Elt Ideal) ℓ) (ρ : Dev nD → PrngReg)

/-- The result buffer after the line that follows the region. -/
theorem result_eq (c : Dev nD) :
    (Pipeline.afterTail₀ cfgs (dats m) 0 (V0 m) [hostOps1] c main_v0 : S8x2048x512.Idx → EReal)
      = out (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v0) = _
  after_results
  show shapeCast S8x2048x512 (Pipeline.withArrays spec0 c (V0 m c) (fun w => (dats m 0 c).arrAt w cfg0.N)
    (Proc.devRef .tc main_call0_v9)) shapeCasts_S16384x512_S8x2048x512 = _
  rw [show Pipeline.withArrays spec0 c (V0 m c) (fun w => (dats m 0 c).arrAt w cfg0.N) (Proc.devRef .tc main_call0_v9)
      = Region.rows (m ((c.tc : Thread nD τ).loc main_arg0)) (m ((c.tc : Thread nD τ).loc main_arg1))
          (m ((c.tc : Thread nD τ).loc main_arg2)) (m ((c.tc : Thread nD τ).loc main_arg3))
    from (Pipeline.withArrays_arr spec0 launch0.win.arr_inj c _ _ 3).trans (Region.final m c)]
  exact fold_rows _ _ _ _

/-- Every weakly fair execution of the kernel program ends with the result at the feed-forward block of the
    arguments and the arguments unchanged. -/
theorem run : θ_run defs (onTc (τ := τ) (main (F := Ideal))) ⟨m, fun _ => 0, ρ⟩ fun r => ∀ c : Dev nD,
      (r.2.mem ((c.tc : Thread nD τ).loc main_v0) : S8x2048x512.Idx → EReal)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefIsSpec.lean ====
/-
  The reference computes the feed-forward block.

  Its last stage is a contraction over the 2048 hidden units of a clipped contraction over the 8 wires of the
  encoding. Read at an index (b, s, e), stage by stage, every operand index is (b, s, ·) on the token side and the
  row (e, ·) or (f, ·) on the weight side, which are the indices the specification names.
-/
import proofs.«140839_j65481071400590_1_alg».proof.Proof.Gen.ReferenceIdeal.Read
import proofs.«140839_j65481071400590_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.FeedForward

/-- The second contraction reads W2 at row (i 2), column f. -/
theorem w2_index (i : S8x2048x512.Idx) (f : Fin 2048) : ridx_main_v8 i f = ix2 (i 2) f :=
  funext fun a => Fin.ext (by match a with | ⟨0, _⟩ => rfl | ⟨1, _⟩ => rfl)

/-- The first contraction, under the second, reads W1 at row f, column q. -/
theorem w1_index (i : S8x2048x512.Idx) (f : Fin 2048) (q : Fin 8) :
    ridx_main_v6 (lidx_main_v8 i f) q = ix2 f q :=
  funext fun a => Fin.ext (by match a with | ⟨0, _⟩ => rfl | ⟨1, _⟩ => rfl)

/-- The token's channel read for wire q under both contractions: channel q of token (i 0, i 1). -/
theorem x_index (i : S8x2048x512.Idx) (f : Fin 2048) (q : Fin 8) :
    idx_main_v0 (lidx_main_v6 (lidx_main_v8 i f) q) = ix3 (i 0) (i 1) (chan q) :=
  funext fun a => Fin.ext (by match a with | ⟨0, _⟩ => rfl | ⟨1, _⟩ => rfl | ⟨2, _⟩ => rfl)

/-- The angle read for wire q through the two broadcasts: angle q. -/
theorem theta_index (i : S8x2048x512.Idx) (f : Fin 2048) (q : Fin 8) :
    idx_main_v3 (idx_main_v4 (lidx_main_v6 (lidx_main_v8 i f) q)) = ix1 q :=
  funext fun a => Fin.ext (by match a with | ⟨0, _⟩ => rfl)

/-- The encoding stage at the index the contractions read is the specification's wire. -/
theorem enc_apply (x0 : (⟨S8x2048x512, .f32⟩ : BufTy).Contents (Elt Ideal)) (x1 : (⟨S8, .f32⟩ : BufTy).Contents (Elt Ideal))
    (i : S8x2048x512.Idx) (f : Fin 2048) (q : Fin 8) :
    val_main_v5 (F := Ideal) x0 x1 (lidx_main_v6 (lidx_main_v8 i f) q) = enc x0 x1 (i 0) (i 1) q := by
  rw [val_main_v5_apply, val_main_v1_apply, val_main_v0_apply, val_main_v4_apply, val_main_v3_apply, val_main_v2_apply,
    x_index, theta_index]
  rfl

/-- The reference's result is the feed-forward block of its four arguments. -/
theorem result_eq (x0 : (⟨S8x2048x512, .f32⟩ : BufTy).Contents (Elt Ideal)) (x1 : (⟨S8, .f32⟩ : BufTy).Contents (Elt Ideal))
    (x2 : (⟨S2048x8, .f32⟩ : BufTy).Contents (Elt Ideal)) (x3 : (⟨S512x2048, .f32⟩ : BufTy).Contents (Elt Ideal)) :
    val_main_v8 (F := Ideal) x0 x1 x2 x3 = out x0 x1 x2 x3 := by
  funext i
  rw [val_main_v8_apply]
  unfold out
  refine Finset.sum_congr rfl fun f _ => ?_
  rw [w2_index, val_main_v7_apply, val_main_v6_apply, val_main_call0_v0_apply, val_main_call0_cst_apply]
  unfold hiddenUnit
  congr 2
  refine Finset.sum_congr rfl fun q _ => ?_
  rw [enc_apply, w1_index]

end Cert.ReferenceIdeal.RefValue

end
-- ==== Proof.lean ====
/-
  A feed-forward block on encoded tokens: the kernel and its reference compute one function.

  Each of the 8 * 2048 tokens is encoded on 8 wires, wire q carrying cos(x[b, s, q]) * cos(theta[q]) from the first 8
  of the token's 512 channels; a hidden layer of 2048 units takes the encoding's inner products with the rows of W1
  and clips them below at zero; the 512 outputs are the hidden layer's inner products with the rows of W2:

      out[b, s, e] = sum over f of max(sum over q of (cos x[b,s,q] * cos theta[q]) * W1[f,q], 0) * W2[e,f].

  The reference contracts over q and then over f directly on the [8, 2048, ·] arrays. The kernel lays the tokens out
  as 16384 rows, transposes the two weight matrices, and works through the rows in 16 blocks of 1024: per block two
  matrix products from zero accumulators around the clipping, the narrowings to the short float format between them
  changing nothing on the extended reals; then it folds the rows back. Read index by index the two are the same
  nesting of the same two sums with each product's factors in the same order: the only facts used are that a product
  accumulated from zero is the plain sum, and that row b * 2048 + s is token (b, s). No law of the extended reals that
  could fail at an infinity is used, so the finiteness of the inputs is never opened.

  The three frames are the generated ones (the reference's its run with the result dropped), and the idealization
  rewrote no operation, so there is nothing to preserve.
-/
import proofs.«140839_j65481071400590_1_alg».proof.Defs
import proofs.«140839_j65481071400590_1_alg».proof.Proof.Gen.Kernel
import proofs.«140839_j65481071400590_1_alg».proof.Proof.Gen.Kernel.Frame
import proofs.«140839_j65481071400590_1_alg».proof.Proof.Gen.KernelIdeal
import proofs.«140839_j65481071400590_1_alg».proof.Proof.Gen.KernelIdeal.Frame
import proofs.«140839_j65481071400590_1_alg».proof.Proof.Gen.ReferenceIdeal
import proofs.«140839_j65481071400590_1_alg».proof.Proof.Gen.ReferenceIdeal.Run
import proofs.«140839_j65481071400590_1_alg».proof.Proof.Gen.ReferenceIdeal.Read
import proofs.«140839_j65481071400590_1_alg».proof.Proof.Gen.Pre_finite_inputs
import proofs.«140839_j65481071400590_1_alg».proof.Proof.KernelRun
import proofs.«140839_j65481071400590_1_alg».proof.Proof.RefIsSpec
import Idealize.ShloMosaic.Adequacy
import Idealize.ShloMosaic.Init

noncomputable section

namespace Cert.Proof

open Idealize.ShloMosaic Idealize.SL.Sem

/-- The kernel program, word by word, runs and keeps its arguments. -/
theorem frame_kernel : Cert.frame_Kernel := fun m ρ _ => Cert.Kernel.Gen.frame m ρ

/-- So does the kernel program read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the feed-forward block of those arguments. -/
theorem algebraic : Cert.algebraic_KernelIdeal_ReferenceIdeal := by
  intro m ρ m' ρ' _ hagree
  refine ⟨fun c => Cert.FeedForward.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
